-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 38
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S128x128, .f32⟩
  | .hbm, ⟨33, _⟩ => ⟨S128x128, .bf16⟩
  | .hbm, ⟨34, _⟩ => ⟨S128x128, .f32⟩
  | .hbm, ⟨35, _⟩ => ⟨S128x128, .bf16⟩
  | .hbm, ⟨36, _⟩ => ⟨S1x128, .f32⟩
  | .hbm, ⟨37, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S128x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelHost.lean ====
import proofs.«169858_j48258252538106_2_alg».proof.Proof.Gen.KernelIdeal
import Idealize.ShloMosaic.Lib.IdealHost
import Idealize.ShloMosaic.Lib.ValueIdx
import Idealize.ShloMosaic.Lib.Pipeline.Value
import Idealize.ShloMosaic.PureOps.Ideal.Laws

/-!
The arrays the kernel's program prepares on the host before its one region, as functions of its arguments.

Two of them are the results of the scatter-additions both programs share: the per-node sums of neighbour
features and the per-node neighbour counts.  They are named here and never opened.  The other three are
re-layings of small things, read entry by entry below for ARBITRARY operands:

* the column of reciprocals `1 / max(deg, 1)`, one per node, stored as a 100000×1 array;
* a weight matrix transposed and cast to the narrow float format (on the extended reals the cast changes
  nothing), read at `(k, q)` as the matrix at `(q, k)`;
* the bias stored as a 1×128 row.
-/

noncomputable section

namespace Cert.KernelIdeal.HostValue

open Cert.KernelIdeal Cert.KernelIdeal.Gen
open Idealize.ShloMosaic Idealize.ShloMosaic.TcCoe Idealize.ShloMosaic.ValueIdx

/-- The per-node sums of neighbour features: the features gathered at each edge's source (a negative source
    index counted from the end), added into the edge's destination row of a zero array. -/
def neighbourSum (h : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The per-node neighbour counts: a one for every edge, added into the edge's destination entry of a zero
    array. -/
def neighbourCount (dst : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The column of reciprocals of the counts clamped at one, for any array of counts. -/
def recipColumn (dg : FVec Ideal S100000 .f32) : FVec Ideal S100000x1 .f32 :=
  shapeCast S100000x1
    (Host.divf (F := Ideal) (broadcastInDim S100000 ![] bcast_S_S100000 (constant (F := Ideal) S_ .f32 0x3F800000#32))
      (maximumf (F := Ideal) dg
        (broadcastInDim S100000 ![] bcast_S_S100000 (constant (F := Ideal) S_ .f32 0x3F800000#32))))
    shapeCasts_S100000_S100000x1

/-- A weight matrix transposed and cast to the narrow format. -/
def castTransposed (W : FVec Ideal S128x128 .f32) : FVec Ideal S128x128 .bf16 :=
  truncf .bf16 (transpose S128x128 [1, 0] W transposes_S128x128_S128x128_1_0) bitsLt_bf16_f32

/-- The bias as a 1×128 row. -/
def biasRow (b : FVec Ideal S128 .f32) : FVec Ideal S1x128 .f32 := shapeCast S1x128 b shapeCasts_S128_S1x128

/-- The float literal one, repeated over the nodes, is the extended real one at every node. -/
theorem ones_apply (j : S100000.Idx) :
    broadcastInDim S100000 ![] bcast_S_S100000 (constant (F := Ideal) S_ .f32 0x3F800000#32) j = (1 : EReal) :=
  (broadcastInDim_apply _ bcast_S_S100000 _ j (fun a => a.elim0) (fun a => a.elim0)).trans Ideal.ofBits_one_f32

/-- Row `r` of the reciprocal column is `1 / max(dg r, 1)`. -/
theorem recipColumn_apply (dg : FVec Ideal S100000 .f32) (r : Fin 100000) :
    recipColumn dg (ix2 r (0 : Fin 1)) = Ideal.div 1 (max (dg (ix1 r)) 1) := by
  unfold recipColumn
  rw [shapeCast_apply _ shapeCasts_S100000_S100000x1 (ix2 r (0 : Fin 1)) (ix1 r)
    (by rw [Shape.rowMajor_val_one, Shape.rowMajor_val_two]; show r.val = r.val * 1 + 0; omega)]
  simp only [Host.divf, maximumf, Ideal.hostDivf_def, Ideal.maximumf_def]
  rw [ones_apply]

/-- Entry `(k, q)` of the cast transposed matrix is the matrix's `(q, k)`. -/
theorem castTransposed_apply (W : FVec Ideal S128x128 .f32) (k q : Fin 128) :
    castTransposed W (ix2 k q) = W (ix2 q k) :=
  transpose_apply [1, 0] W transposes_S128x128_S128x128_1_0 (ix2 k q) (ix2 q k) (fun b => match b with
    | ⟨0, _⟩ => rfl
    | ⟨1, _⟩ => rfl)

/-- Entry `(0, q)` of the bias row is the bias at `q`. -/
theorem biasRow_apply (b : FVec Ideal S128 .f32) (q : Fin 128) : biasRow b (ix2 (0 : Fin 1) q) = b (ix1 q) := by
  unfold biasRow
  exact shapeCast_apply b shapeCasts_S128_S1x128 (ix2 (0 : Fin 1) q) (ix1 q)
    (by rw [Shape.rowMajor_val_one, Shape.rowMajor_val_two]; show q.val = 0 * 128 + q.val; omega)

end Cert.KernelIdeal.HostValue

end
-- ==== Proof.Payload.lean ====
import proofs.«169858_j48258252538106_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
What the kernel body computes for one block of 5000 nodes, entry by entry, on the extended reals.

The body loads a block of node features `x0`, the same rows of the summed neighbour features `x1`, the same
rows of the reciprocal clamped degrees `x2` (one column), the two transposed weight matrices `x3`, `x4` and the
bias row `x5`.  A change of float format is the identity on the extended reals and a shape cast to the same
shape moves nothing, so entry `(p, q)` of the stored block is

  ( Σ_k x0 p k · x3 k q  +  (Σ_k x1 p k · x4 k q) · x2 p 0 )  +  x5 0 q :

each matrix product into a zero accumulator is the plain sum over the 128 contracted features, the column of
reciprocals is repeated along the feature axis and the bias row down the node axis.
-/

noncomputable section

namespace Cert.KernelIdeal.BodyValue

open Cert.KernelIdeal Cert.KernelIdeal.Gen
open Idealize.ShloMosaic Idealize.ShloMosaic.TcCoe Idealize.ShloMosaic.ValueIdx

/-- The left operand of the block's matrix product is read at the output's row. -/
theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand of the block's matrix product is read at the output's column. -/
theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A 5000×128 block times a 128×128 matrix, accumulated into zero, at entry `(p, q)`: the sum over the
    contracted feature `k` of the block's `(p, k)` times the matrix's `(k, q)`. -/
theorem block_matmul_apply {φ₁ φ₂ : FTy} (lhs : FVec Ideal S5000x128 φ₁) (rhs : FVec Ideal S128x128 φ₂)
    (p : Fin 5000) (q : Fin 128) :
    matmul dot_S5000x128_S128x128_S5000x128_1_0_0_1_n_n none lhs rhs (constant S5000x128 .f32 0x00000000#32) (ix2 p q)
      = ∑ k : Fin 128, lhs (ix2 p k) * rhs (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- A column of 5000 values repeated along 128 features, at `(p, q)`, is the column's entry `p`. -/
theorem column_broadcast_apply {α : Type} (v : S5000x1.Idx → α) (h : S5000x1.Broadcasts S5000x128)
    (p : Fin 5000) (q : Fin 128) : broadcastTo S5000x128 v h (ix2 p q) = v (ix2 p (0 : Fin 1)) := by
  refine broadcastTo_apply v h (ix2 p q) (ix2 p (0 : Fin 1)) fun ax => ?_
  match ax with
  | ⟨0, _⟩ => show p.val = if (5000 : Nat) = 1 then 0 else p.val; rw [if_neg (by decide)]
  | ⟨1, _⟩ => rfl

/-- Entry `(p, q)` of the block the body stores. -/
theorem payload_apply (x0 x1 : Vec Ideal S5000x128 .f32) (x3 x4 : Vec Ideal S128x128 .bf16)
    (x2 : Vec Ideal S5000x1 .f32) (x5 : Vec Ideal S1x128 .f32) (p : Fin 5000) (q : Fin 128) :
    k0_pay1 (F := Ideal) x0 x1 x3 x4 x2 x5 (ix2 p q)
      = (∑ k : Fin 128, x0 (ix2 p k) * x3 (ix2 k q)
          + (∑ k : Fin 128, x1 (ix2 p k) * x4 (ix2 k q)) * x2 (ix2 p (0 : Fin 1)))
        + x5 (ix2 (0 : Fin 1) q) := by
  unfold k0_pay1
  simp only [shapeCast_self, addf, mulf, Ideal.addf_def, Ideal.mulf_def]
  rw [block_matmul_apply, block_matmul_apply, column_broadcast_apply, broadcastTo_1b_ab_apply]
  rfl

end Cert.KernelIdeal.BodyValue

end
-- ==== Proof.Combine.lean ====
import Idealize.ShloMosaic.PureOps.Ideal
import Idealize.ShloMosaic.Lib.ValueIdx

/-!
The layer's result as ONE function of its arrays, entry by entry, on the extended reals.

For node `n` and output feature `o`, with `h` the node features, `A` the per-node sums of neighbour
features, `deg` the per-node neighbour counts, `Ws` and `Wn` the two weight matrices stored
[output feature, input feature], and `b` the bias:

  out n o = ( Σ_k h n k · Ws o k  +  Σ_k (A n k / max (deg n) 1) · Wn o k )  +  b o.

`A` and `deg` are left as arguments: both programs compute them by the same gather and the same two
scatter-additions from the same inputs, so the certificate never needs to know what they are.
-/

noncomputable section

namespace Cert.MeanScale

open Idealize.ShloMosaic Idealize.ShloMosaic.ValueIdx

/-- Entry `(n, o)` of the layer's result. -/
def combineAt (h A : (⟨2, ![100000, 128]⟩ : Shape).Idx → EReal) (deg : (⟨1, ![100000]⟩ : Shape).Idx → EReal)
    (Ws Wn : (⟨2, ![128, 128]⟩ : Shape).Idx → EReal) (b : (⟨1, ![128]⟩ : Shape).Idx → EReal)
    (n : Fin 100000) (o : Fin 128) : EReal :=
  (∑ k : Fin 128, h (ix2 n k) * Ws (ix2 o k)
    + ∑ k : Fin 128, Ideal.div (A (ix2 n k)) (max (deg (ix1 n)) 1) * Wn (ix2 o k))
  + b (ix1 o)

/-- The layer's result array: entry `i` is `combineAt` at `i`'s two coordinates. -/
def combine (h A : (⟨2, ![100000, 128]⟩ : Shape).Idx → EReal) (deg : (⟨1, ![100000]⟩ : Shape).Idx → EReal)
    (Ws Wn : (⟨2, ![128, 128]⟩ : Shape).Idx → EReal) (b : (⟨1, ![128]⟩ : Shape).Idx → EReal) :
    (⟨2, ![100000, 128]⟩ : Shape).Idx → EReal :=
  fun i => combineAt h A deg Ws Wn b ⟨(i 0).val, (i 0).isLt⟩ ⟨(i 1).val, (i 1).isLt⟩

theorem combine_ix2 (h A : (⟨2, ![100000, 128]⟩ : Shape).Idx → EReal) (deg : (⟨1, ![100000]⟩ : Shape).Idx → EReal)
    (Ws Wn : (⟨2, ![128, 128]⟩ : Shape).Idx → EReal) (b : (⟨1, ![128]⟩ : Shape).Idx → EReal)
    (n : Fin 100000) (o : Fin 128) :
    combine h A deg Ws Wn b (ix2 n o) = combineAt h A deg Ws Wn b n o := rfl

end Cert.MeanScale

end
-- ==== Proof.ScaleLaw.lean ====
import Idealize.ShloMosaic.PureOps.Ideal
import Idealize.ShloMosaic.PureOps.Ideal.Laws
import Mathlib.Data.EReal.Inv

/-!
The one algebraic law of this certificate, on the extended reals.

A mean over a row's neighbours divides the row of summed neighbour features by the row's clamped degree
`d = max(deg, 1)`.  One program divides every summed feature by `d` before it is multiplied into the weight
matrix; the other multiplies the summed features into the weight matrix first and scales the finished dot
product by `1 / d`.  Since `d ≥ 1`, the divisor is never zero, so both quotients are products with `d⁻¹`, and
`d⁻¹` is a nonnegative extended real other than `+∞` (it is `0` when `d = +∞`).  Multiplication by such a
factor distributes over every sum of extended reals, finite or not, so the two arrangements agree for ALL
summands: nothing here asks the features or the weights to be finite.
-/

noncomputable section

namespace Cert.MeanScale

open Idealize.ShloMosaic

/-- A nonnegative extended real other than `+∞` multiplies through a finite sum of extended reals. -/
theorem mul_sum_of_nonneg_of_ne_top {κ : Type*} (S : Finset κ) (s : EReal) (h0 : 0 ≤ s) (ht : s ≠ ⊤)
    (f : κ → EReal) : s * ∑ k ∈ S, f k = ∑ k ∈ S, s * f k := by
  classical
  induction S using Finset.induction_on with
  | empty => simp
  | insert a S ha ih =>
    rw [Finset.sum_insert ha, Finset.sum_insert ha, EReal.left_distrib_of_nonneg_of_ne_top h0 ht, ih]

/-- The inverse of an extended real that is at least one is nonnegative and is not `+∞`. -/
theorem inv_nonneg_ne_top {d : EReal} (hd : 1 ≤ d) : 0 ≤ d⁻¹ ∧ d⁻¹ ≠ ⊤ := by
  refine ⟨EReal.inv_nonneg_of_nonneg (zero_le_one.trans hd), ?_⟩
  induction d using EReal.rec with
  | bot => rw [EReal.inv_bot]; exact EReal.zero_ne_top
  | coe x => rw [← EReal.coe_inv]; exact EReal.coe_ne_top _
  | top => rw [EReal.inv_top]; exact EReal.zero_ne_top

/-- Scaling a finished dot product by `1 / d` is the dot product of the operands divided by `d` entry by
    entry, whenever `d ≥ 1`: both quotients are products with `d⁻¹`, which multiplies through the sum. -/
theorem sum_mul_one_div {κ : Type*} [Fintype κ] (a w : κ → EReal) (d : EReal) (hd : 1 ≤ d) :
    (∑ k, a k * w k) * Ideal.div 1 d = ∑ k, Ideal.div (a k) d * w k := by
  have hne : d ≠ 0 := (lt_of_lt_of_le zero_lt_one hd).ne'
  obtain ⟨h0, ht⟩ := inv_nonneg_ne_top hd
  simp only [Ideal.div, if_neg hne, one_mul]
  rw [mul_comm, mul_sum_of_nonneg_of_ne_top _ _ h0 ht]
  refine Finset.sum_congr rfl fun k _ => ?_
  rw [← mul_assoc, mul_comm d⁻¹ (a k)]

end Cert.MeanScale

end
-- ==== Proof.KernelPoint.lean ====
import proofs.«169858_j48258252538106_2_alg».proof.Proof.Payload
import proofs.«169858_j48258252538106_2_alg».proof.Proof.Combine
import proofs.«169858_j48258252538106_2_alg».proof.Proof.ScaleLaw

/-!
One entry of one stored block is the layer function's entry, given only WHERE the block's operands sit in the
whole arrays.

Suppose the block of features and the block of summed neighbour features are rows `row p` of the arrays `h`
and `A`, the column of reciprocals at `p` is `1 / max(deg (row p), 1)`, the two resident matrices at
`(k, q)` are the weights at `(q, k)`, and the bias row is the bias.  Then the body's entry `(p, q)`,

  ( Σ_k h (row p) k · Ws q k  +  (Σ_k A (row p) k · Wn q k) · (1 / max(deg (row p), 1)) )  +  b q,

is the layer function's entry `(row p, q)`: scaling the finished neighbour product by the reciprocal is
dividing every summed feature by the clamped count before the product, because the clamped count is at least
one.  The arrays are arbitrary: no entry is asked to be finite.
-/

noncomputable section

namespace Cert.KernelIdeal.BodyValue

open Cert.KernelIdeal Cert.KernelIdeal.Gen
open Idealize.ShloMosaic Idealize.ShloMosaic.TcCoe Idealize.ShloMosaic.ValueIdx

theorem point_value (x0 x1 : Vec Ideal S5000x128 .f32) (x3 x4 : Vec Ideal S128x128 .bf16)
    (x2 : Vec Ideal S5000x1 .f32) (x5 : Vec Ideal S1x128 .f32)
    (h A : (⟨2, ![100000, 128]⟩ : Shape).Idx → EReal) (deg : (⟨1, ![100000]⟩ : Shape).Idx → EReal)
    (Ws Wn : (⟨2, ![128, 128]⟩ : Shape).Idx → EReal) (b : (⟨1, ![128]⟩ : Shape).Idx → EReal)
    (row : Fin 5000 → Fin 100000)
    (h0 : ∀ (p : Fin 5000) (k : Fin 128), x0 (ix2 p k) = h (ix2 (row p) k))
    (h1 : ∀ (p : Fin 5000) (k : Fin 128), x1 (ix2 p k) = A (ix2 (row p) k))
    (h2 : ∀ p : Fin 5000, x2 (ix2 p (0 : Fin 1)) = Ideal.div 1 (max (deg (ix1 (row p))) 1))
    (h3 : ∀ k q : Fin 128, x3 (ix2 k q) = Ws (ix2 q k))
    (h4 : ∀ k q : Fin 128, x4 (ix2 k q) = Wn (ix2 q k))
    (h5 : ∀ q : Fin 128, x5 (ix2 (0 : Fin 1) q) = b (ix1 q))
    (p : Fin 5000) (q : Fin 128) :
    k0_pay1 (F := Ideal) x0 x1 x3 x4 x2 x5 (ix2 p q) = Cert.MeanScale.combineAt h A deg Ws Wn b (row p) q := by
  rw [payload_apply]
  unfold Cert.MeanScale.combineAt
  simp only [h0, h1, h2, h3, h4, h5]
  rw [Cert.MeanScale.sum_mul_one_div _ _ _ (le_max_right _ _)]

end Cert.KernelIdeal.BodyValue

end
-- ==== Proof.KernelEntry.lean ====
import proofs.«169858_j48258252538106_2_alg».proof.Proof.Gen.KernelIdeal.Value
import proofs.«169858_j48258252538106_2_alg».proof.Proof.KernelHost
import proofs.«169858_j48258252538106_2_alg».proof.Proof.KernelPoint
import Idealize.ShloMosaic.Lib.StableHlo.Run

/-!
The arrays the kernel's one region finds when it is entered, and where its windows' blocks sit.

The region's second to sixth windows stage arrays the host operations wrote before it: the summed neighbour
features, the column of reciprocals of the clamped neighbour counts, the two weight matrices transposed and
cast, and the bias as a row.  The region runs over 20 points; the three per-node windows and the result move
with the point along the node axis, 5000 nodes at a time, and the weights and the bias stay in place.
-/

noncomputable section

namespace Cert.KernelIdeal.ArrayValue

open Cert.KernelIdeal Cert.KernelIdeal.Gen Cert.KernelIdeal.HostValue Cert.KernelIdeal.BodyValue
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- The layer function of the launch contents of the six arguments on core `c`. -/
def result (c : Dev nD) : S100000x128.Idx → EReal :=
  Cert.MeanScale.combine (m ((c : Thread nD τ).loc main_arg0))
    (neighbourSum (m ((c : Thread nD τ).loc main_arg0)) (m ((c : Thread nD τ).loc main_arg1))
      (m ((c : Thread nD τ).loc main_arg2)))
    (neighbourCount (m ((c : Thread nD τ).loc main_arg2)))
    (m ((c : Thread nD τ).loc main_arg3)) (m ((c : Thread nD τ).loc main_arg4))
    (m ((c : Thread nD τ).loc main_arg5))

/-! ## The arrays the region finds -/

/-- The second window's array holds the summed neighbour features. -/
theorem entry_sum (c : Dev nD) : (V m c main_v9 : S100000x128.Idx → EReal)
    = neighbourSum (m ((c : Thread nD τ).loc main_arg0)) (m ((c : Thread nD τ).loc main_arg1))
        (m ((c : Thread nD τ).loc main_arg2)) := by
  unfold neighbourSum
  dsimp only [Gen.V, Gen.hostOps0]
  after_results <;> rfl

/-- The third window's array holds the reciprocals of the clamped neighbour counts. -/
theorem entry_recip (c : Dev nD) : (V m c main_v18 : S100000x1.Idx → EReal)
    = recipColumn (neighbourCount (m ((c : Thread nD τ).loc main_arg2))) := by
  unfold recipColumn neighbourCount
  dsimp only [Gen.V, Gen.hostOps0]
  after_results <;> rfl

/-- The fourth window's array holds the self weights, transposed and cast. -/
theorem entry_self (c : Dev nD) : (V m c main_v20 : S128x128.Idx → EReal)
    = castTransposed (m ((c : Thread nD τ).loc main_arg3)) := by
  unfold castTransposed
  dsimp only [Gen.V, Gen.hostOps0]
  after_results <;> rfl

/-- The fifth window's array holds the neighbour weights, transposed and cast. -/
theorem entry_neigh (c : Dev nD) : (V m c main_v22 : S128x128.Idx → EReal)
    = castTransposed (m ((c : Thread nD τ).loc main_arg4)) := by
  unfold castTransposed
  dsimp only [Gen.V, Gen.hostOps0]
  after_results <;> rfl

/-- The sixth window's array holds the bias as a row. -/
theorem entry_bias (c : Dev nD) : (V m c main_v23 : S1x128.Idx → EReal)
    = biasRow (m ((c : Thread nD τ).loc main_arg5)) := by
  unfold biasRow
  dsimp only [Gen.V, Gen.hostOps0]
  after_results <;> rfl

/-! ## Where each window's block sits at point `t` -/

theorem hz : (![0, 0] : Fin 2 → Nat) = fun _ => 0 := funext fun a => by fin_cases a <;> rfl

/-- The block index of every window at every point: the three per-node windows and the result move with the
    point along the node axis, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The node that row `p` of point `t`'s blocks is. -/
def row (t : Fin cfg0.N) (p : Fin 5000) : Fin 100000 :=
  ⟨5000 * t.val + p.val, by have := t.isLt; have hN : cfg0.N = 20 := N_0; have := p.isLt; omega⟩

/-! The same three facts at the buffer as a window names it (`Pipeline.arrRef spec0 w` is that buffer). -/

theorem window_sum (c : Dev nD) : (V m c (Pipeline.arrRef spec0 1) : S100000x128.Idx → EReal)
    = neighbourSum (m ((c : Thread nD τ).loc main_arg0)) (m ((c : Thread nD τ).loc main_arg1))
        (m ((c : Thread nD τ).loc main_arg2)) := entry_sum m c

theorem window_recip (c : Dev nD) : (V m c (Pipeline.arrRef spec0 2) : S100000x1.Idx → EReal)
    = recipColumn (neighbourCount (m ((c : Thread nD τ).loc main_arg2))) := entry_recip m c

/-- A window's block at a point is its array, as the region finds it, read through the block. -/
theorem iblk_eq (c : Dev nD) (w : Fin cfg0.W) (t : Fin cfg0.N) :
    iblk m c w t = ((cfg0.win w).blk t).view.read (Elt Ideal) (V m c (Pipeline.arrRef spec0 w)) := by
  unfold iblk
  rfl

end Cert.KernelIdeal.ArrayValue

end
-- ==== Proof.KernelReadsA.lean ====
import proofs.«169858_j48258252538106_2_alg».proof.Proof.KernelEntry

/-!
The three per-node blocks at point `t`, read entry by entry: the features and the summed neighbour features at
row `p` are the whole arrays' row `5000 t + p`, and the reciprocal at row `p` is one over the clamped count of
that node.  A block's element sits at block index × block size + its coordinate inside the block.
-/

noncomputable section

namespace Cert.KernelIdeal.ArrayValue

open Cert.KernelIdeal Cert.KernelIdeal.Gen Cert.KernelIdeal.HostValue Cert.KernelIdeal.BodyValue
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- The features block at point `t` is rows `row t ·` of the features. -/
theorem read_features (c : Dev nD) (t : Fin cfg0.N) (p : Fin 5000) (k : Fin 128) :
    (iblk m c 0 t : Vec Ideal S5000x128 .f32) (ix2 p k)
      = (m ((c : Thread nD τ).loc main_arg0) : S100000x128.Idx → EReal) (ix2 (row t p) k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- Any 100000×128 array read through the second window's block at point `t`: entry `(p, k)` is the array's
    `(row t p, k)`. -/
theorem rows_read (c : Dev nD) (t : Fin cfg0.N)
    (f : Buf (Elt Ideal) ((cfg0.win 1).arr.view.loc (c.tc : Thread nD τ))) (p : Fin 5000) (k : Fin 128) :
    (((cfg0.win 1).blk t).view.read (Elt Ideal) f : Vec Ideal S5000x128 .f32) (ix2 p k)
      = (f : S100000x128.Idx → EReal) (ix2 (row t p) k) := by
  obtain ⟨-, -, e0, e1, -⟩ := idx_facts t
  have hemb : ((cfg0.win 1).blk t).view.emb (ix2 p k) = ix2 (row t p) k := funext fun a => Fin.ext (by
    match a with
    | ⟨0, _⟩ => show win0_1.index t (0 : Fin 2) * 5000 + 1 * p.val = 5000 * t.val + p.val; rw [e0]; omega
    | ⟨1, _⟩ => show win0_1.index t (1 : Fin 2) * 128 + 1 * k.val = k.val; rw [e1]; omega)
  rw [View.read_apply]
  exact congrArg f hemb

/-- Any 100000×1 array read through the third window's block at point `t`: entry `(p, 0)` is the array's
    `(row t p, 0)`. -/
theorem column_read (c : Dev nD) (t : Fin cfg0.N)
    (f : Buf (Elt Ideal) ((cfg0.win 2).arr.view.loc (c.tc : Thread nD τ))) (p : Fin 5000) :
    (((cfg0.win 2).blk t).view.read (Elt Ideal) f : Vec Ideal S5000x1 .f32) (ix2 p (0 : Fin 1))
      = (f : S100000x1.Idx → EReal) (ix2 (row t p) (0 : Fin 1)) := by
  obtain ⟨-, -, -, -, e0, e1, -⟩ := idx_facts t
  have hemb : ((cfg0.win 2).blk t).view.emb (ix2 p (0 : Fin 1)) = ix2 (row t p) (0 : Fin 1) :=
    funext fun a => Fin.ext (by
      match a with
      | ⟨0, _⟩ => show win0_2.index t (0 : Fin 2) * 5000 + 1 * p.val = 5000 * t.val + p.val; rw [e0]; omega
      | ⟨1, _⟩ => show win0_2.index t (1 : Fin 2) * 1 + 1 * 0 = 0; rw [e1])
  rw [View.read_apply]
  exact congrArg f hemb

/-- The summed-neighbour block at point `t` is rows `row t ·` of the summed neighbour features. -/
theorem read_sum (c : Dev nD) (t : Fin cfg0.N) (p : Fin 5000) (k : Fin 128) :
    (iblk m c 1 t : Vec Ideal S5000x128 .f32) (ix2 p k)
      = neighbourSum (m ((c : Thread nD τ).loc main_arg0)) (m ((c : Thread nD τ).loc main_arg1))
          (m ((c : Thread nD τ).loc main_arg2)) (ix2 (row t p) k) :=
  ((congrFun (iblk_eq m c 1 t) (ix2 p k)).trans (rows_read c t (V m c (Pipeline.arrRef spec0 1)) p k)).trans
    (congrFun (window_sum m c) (ix2 (row t p) k))

/-- The reciprocal block at point `t`, at row `p`, is `1 / max(count (row t p), 1)`. -/
theorem read_recip (c : Dev nD) (t : Fin cfg0.N) (p : Fin 5000) :
    (iblk m c 2 t : Vec Ideal S5000x1 .f32) (ix2 p (0 : Fin 1))
      = Ideal.div 1 (max (neighbourCount (m ((c : Thread nD τ).loc main_arg2)) (ix1 (row t p))) 1) :=
  (((congrFun (iblk_eq m c 2 t) (ix2 p (0 : Fin 1))).trans
      (column_read c t (V m c (Pipeline.arrRef spec0 2)) p)).trans
    (congrFun (window_recip m c) (ix2 (row t p) (0 : Fin 1)))).trans
    (recipColumn_apply (neighbourCount (m ((c : Thread nD τ).loc main_arg2))) (row t p))

end Cert.KernelIdeal.ArrayValue

end
-- ==== Proof.KernelReadsB.lean ====
import proofs.«169858_j48258252538106_2_alg».proof.Proof.KernelEntry

/-!
The three blocks that are the same at every point, read entry by entry: each weight block is the whole cast
transposed matrix, so its `(k, q)` is the weight matrix's `(q, k)`, and the bias block is the whole bias row.
-/

noncomputable section

namespace Cert.KernelIdeal.ArrayValue

open Cert.KernelIdeal Cert.KernelIdeal.Gen Cert.KernelIdeal.HostValue Cert.KernelIdeal.BodyValue
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- The self-weight block at every point is the whole cast transposed matrix. -/
theorem read_self (c : Dev nD) (t : Fin cfg0.N) (k q : Fin 128) :
    (iblk m c 3 t : Vec Ideal S128x128 .bf16) (ix2 k q)
      = (m ((c : Thread nD τ).loc main_arg3) : S128x128.Idx → EReal) (ix2 q k) := by
  obtain ⟨-, -, -, -, -, -, e0, e1, -⟩ := idx_facts t
  unfold iblk
  rw [View.read_apply]
  show V m c main_v20 _ = _
  rw [entry_self]
  refine (congrArg (castTransposed _) (funext fun a => Fin.ext ?_)).trans (castTransposed_apply _ k q)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The neighbour-weight block at every point is the whole cast transposed matrix. -/
theorem read_neigh (c : Dev nD) (t : Fin cfg0.N) (k q : Fin 128) :
    (iblk m c 4 t : Vec Ideal S128x128 .bf16) (ix2 k q)
      = (m ((c : Thread nD τ).loc main_arg4) : S128x128.Idx → EReal) (ix2 q k) := by
  obtain ⟨-, -, -, -, -, -, -, -, e0, e1, -⟩ := idx_facts t
  unfold iblk
  rw [View.read_apply]
  show V m c main_v22 _ = _
  rw [entry_neigh]
  refine (congrArg (castTransposed _) (funext fun a => Fin.ext ?_)).trans (castTransposed_apply _ k q)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The bias block at every point is the whole bias row. -/
theorem read_bias (c : Dev nD) (t : Fin cfg0.N) (q : Fin 128) :
    (iblk m c 5 t : Vec Ideal S1x128 .f32) (ix2 (0 : Fin 1) q)
      = (m ((c : Thread nD τ).loc main_arg5) : S128.Idx → EReal) (ix1 q) := by
  obtain ⟨-, -, -, -, -, -, -, -, -, -, e0, e1, -⟩ := idx_facts t
  unfold iblk
  rw [View.read_apply]
  show V m c main_v23 _ = _
  rw [entry_bias]
  refine (congrArg (biasRow _) (funext fun a => Fin.ext ?_)).trans (biasRow_apply _ q)
  match a with
  | ⟨0, _⟩ => show win0_5.index t (0 : Fin 2) * 1 + 1 * 0 = 0; rw [e0]
  | ⟨1, _⟩ => show win0_5.index t (1 : Fin 2) * 128 + 1 * q.val = q.val; rw [e1]; omega

end Cert.KernelIdeal.ArrayValue

end
-- ==== Proof.KernelValue.lean ====
import proofs.«169858_j48258252538106_2_alg».proof.Proof.KernelReadsA
import proofs.«169858_j48258252538106_2_alg».proof.Proof.KernelReadsB

/-!
The kernel's result array after the run is the layer function of its arguments.

The region runs over 20 points; point `t` works on nodes `5000 t … 5000 t + 4999`.  Its blocks of features,
of summed neighbour features and of reciprocals are those rows of the three per-node arrays; the two weight
matrices, the bias row and nothing else are the same at every point; and it writes back those rows of the
result.  So what point `t` writes back is rows `5000 t …` of the layer function of the whole arrays (the
per-point lemma), the 20 row blocks tile the 100000 rows, and the array ends holding the layer function.
-/

noncomputable section

namespace Cert.KernelIdeal.ArrayValue

open Cert.KernelIdeal Cert.KernelIdeal.Gen Cert.KernelIdeal.HostValue Cert.KernelIdeal.BodyValue
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-! ## What each point writes back, and the array after the run -/

/-- A 5000×128 block `X` written back through the result window at point `t` is block `t` of an array `G`
    as soon as `X`'s entry `(p, q)` is `G`'s `(row t p, q)`: the block's element `(p, q)` sits at row
    `5000 t + p`, column `q`, of the array. -/
theorem written_back (c : Dev nD) (t : Fin cfg0.N) (X : Vec Ideal S5000x128 .f32)
    (G : Buf (Elt Ideal) ((cfg0.win 6).arr.view.loc (c.tc : Thread nD τ)))
    (h : ∀ (p : Fin 5000) (q : Fin 128), X (ix2 p q) = (G : S100000x128.Idx → EReal) (ix2 (row t p) q)) :
    (cfg0.win 6).cut (grid0.coords t) X = ((cfg0.win 6).blk t).view.read (Elt Ideal) G := by
  obtain ⟨-, -, -, -, -, -, -, -, -, -, -, -, e0, e1⟩ := idx_facts t
  funext j
  obtain ⟨p, q, rfl⟩ : ∃ (p : Fin 5000) (q : Fin 128), j = ix2 p q := ⟨j 0, j 1, eq_ix2 j⟩
  show X (ix2 p q) = G (((cfg0.win 6).blk t).view.emb (ix2 p q))
  have hemb : ((cfg0.win 6).blk t).view.emb (ix2 p q) = ix2 (row t p) q := funext fun a => Fin.ext (by
    match a with
    | ⟨0, _⟩ => show win0_6.index t (0 : Fin 2) * 5000 + 1 * p.val = 5000 * t.val + p.val; rw [e0]; omega
    | ⟨1, _⟩ => show win0_6.index t (1 : Fin 2) * 128 + 1 * q.val = q.val; rw [e1]; omega)
  rw [hemb]
  exact h p q

/-- What point `t` writes back is block `t` of the layer function. -/
theorem flushed_eq (c : Dev nD) (t : Fin cfg0.N) :
    (dats m 0 c).flushed 6 t = ((cfg0.win 6).blk t).view.read (Elt Ideal) (result m c) := by
  rw [Cert.KernelIdeal.Value.flushed6]
  refine written_back c t _ (result m c) (fun p q => ?_)
  unfold out0_6
  rw [View.canon_unit_zero hz]
  simp only [View.ld_unit_zero (S := S5000x128) hz, View.ld_unit_zero (S := S128x128) hz,
    View.ld_unit_zero (S := S5000x1) hz, View.ld_unit_zero (S := S1x128) hz]
  unfold result
  rw [Cert.MeanScale.combine_ix2]
  exact point_value (iblk m c 0 t) (iblk m c 1 t) (iblk m c 3 t) (iblk m c 4 t) (iblk m c 2 t) (iblk m c 5 t)
    (m ((c : Thread nD τ).loc main_arg0))
    (neighbourSum (m ((c : Thread nD τ).loc main_arg0)) (m ((c : Thread nD τ).loc main_arg1))
      (m ((c : Thread nD τ).loc main_arg2)))
    (neighbourCount (m ((c : Thread nD τ).loc main_arg2)))
    (m ((c : Thread nD τ).loc main_arg3)) (m ((c : Thread nD τ).loc main_arg4))
    (m ((c : Thread nD τ).loc main_arg5))
    (row t) (read_features m c t) (read_sum m c t) (read_recip m c t) (read_self m c t)
    (read_neigh m c t) (read_bias m c t) p q

/-- An index of the result array is in point `t`'s block iff each coordinate is in the block's range. -/
theorem mem_blk (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v24).slice (win0_6.rect t)).set ↔ _
  rw [View.set_slice_whole, Rect.mem_set_unit]
  exact Iff.rfl

/-- Every index of the result array is in the block of the point its node falls in: node `n` in point
    `n / 5000`. -/
theorem cover (i : S100000x128.Idx) :
    ∃ t : Fin cfg0.N, (cfg0.win 6).flush t = true ∧ i ∈ ((cfg0.win 6).blk t).view.set := by
  have hN : cfg0.N = 20 := N_0
  have hi0 : (i 0).val < 100000 := (i 0).isLt
  have hi1 : (i 1).val < 128 := (i 1).isLt
  have ht : (i 0).val / 5000 < cfg0.N := by rw [hN]; omega
  obtain ⟨-, -, -, -, -, -, -, -, -, -, -, -, e0, e1⟩ := idx_facts ⟨(i 0).val / 5000, ht⟩
  refine ⟨⟨(i 0).val / 5000, ht⟩, flush0_6 _, ?_⟩
  rw [mem_blk]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    rw [e1]; omega

/-- The result array after the run is the layer function of the arguments. -/
theorem final (c : Dev nD) : (dats m 0 c).arrAt 6 cfg0.N = result m c :=
  (dats m 0 c).arrAt_eq_of_cover 6 (result m c) (fun t _ => flushed_eq m c t) cover

/-- The kernel's run, read: the result buffer ends at the layer function of the launch contents of the
    arguments, and the arguments end as they were. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.ArrayValue

end
-- ==== Proof.RefSide.lean ====
import proofs.«169858_j48258252538106_2_alg».proof.Proof.Gen.ReferenceIdeal
import proofs.«169858_j48258252538106_2_alg».proof.Proof.Combine
import Idealize.ShloMosaic.Lib.IdealHost
import Idealize.ShloMosaic.Lib.ValueIdx
import Idealize.ShloMosaic.Lib.Pipeline.Value
import Idealize.ShloMosaic.PureOps.Ideal.Laws

/-!
The reference program after its two scatter-additions, as a function of their results.

Once the summed neighbour features `A` and the neighbour counts `deg` are in hand, the reference clamps the
counts at one, repeats them along the feature axis, divides `A` by them, and returns
(h · Wsᵀ) + ((A / max(deg, 1)) · Wnᵀ) + b.  Read entry by entry this is the layer function `combine`: each
matrix product is a sum over the 128 input features, a transposed weight matrix read at `(k, o)` is the matrix
at `(o, k)`, the clamped count repeated along the features is read at the node, the bias repeated down the
nodes is read at the output feature, and the float literal the counts are clamped against is the extended real
one.  `A` and `deg` are arbitrary arrays here.
-/

noncomputable section

namespace Cert.ReferenceIdeal.RefValue

open Cert.ReferenceIdeal Cert.ReferenceIdeal.Gen
open Idealize.ShloMosaic Idealize.ShloMosaic.TcCoe Idealize.ShloMosaic.ValueIdx

/-- The per-node sums of neighbour features, as the reference computes them: the features gathered at each
    edge's source (a negative source index counted from the end), added into the edge's destination row of a
    zero array. -/
abbrev neighbourSum (h : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The per-node neighbour counts, as the reference computes them: a one for every edge, added into the edge's
    destination entry of a zero array. -/
abbrev neighbourCount (dst : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The reference's operations after the scatter-additions, applied to their results `A` and `deg`. -/
abbrev tail (h A : FVec Ideal S100000x128 .f32) (deg : FVec Ideal S100000 .f32)
    (Ws Wn : FVec Ideal S128x128 .f32) (b : FVec Ideal S128 .f32) :
    FVec Ideal S100000x128 .f32 :=
  addf (F := Ideal)
    (addf (F := Ideal)
      (Host.dotGeneral (F := Ideal) dot_S100000x128_S128x128_S100000x128_1_0_0_1_n_n none h (transpose S128x128 [1, 0] Ws transposes_S128x128_S128x128_1_0))
      (Host.dotGeneral (F := Ideal) dot_S100000x128_S128x128_S100000x128_1_0_0_1_n_n none
        (Host.divf (F := Ideal) A
          (broadcastInDim S100000x128 ![0, 1] bcast_S100000x1_S100000x128_0_1
            (broadcastInDim S100000x1 ![0] bcast_S100000_S100000x1_0
              (maximumf (F := Ideal) deg
                (broadcastInDim S100000 ![] bcast_S_S100000 (constant (F := Ideal) S_ .f32 0x3F800000#32))))))
        (transpose S128x128 [1, 0] Wn transposes_S128x128_S128x128_1_0)))
    (broadcastInDim S100000x128 ![0, 1] bcast_S1x128_S100000x128_0_1 (broadcastInDim S1x128 ![1] bcast_S128_S1x128_1 b))

/-- The left operand of the reference's matrix product is read at the output's row. -/
theorem lhs_row (i : S100000x128.Idx) (c : dot_S100000x128_S128x128_S100000x128_1_0_0_1_n_n.contr.Idx) : (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

/-- The right operand of the reference's matrix product is read at the output's column. -/
theorem rhs_col (i : S100000x128.Idx) (c : dot_S100000x128_S128x128_S100000x128_1_0_0_1_n_n.contr.Idx) : (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- A 100000×128 array times a 128×128 matrix at entry `(n, o)`: the sum over the contracted feature. -/
theorem product_apply {φ₁ φ₂ : FTy} (l : FVec Ideal S100000x128 φ₁) (r : FVec Ideal S128x128 φ₂)
    (n : Fin 100000) (o : Fin 128) :
    Host.dotGeneral dot_S100000x128_S128x128_S100000x128_1_0_0_1_n_n none l r (ix2 n o) = ∑ k : Fin 128, l (ix2 n k) * r (ix2 k o) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 n o) ((contrEquiv1 dot_S100000x128_S128x128_S100000x128_1_0_0_1_n_n 128 rfl rfl).symm k) = ix2 n k :=
    funext fun a => Fin.ext (by
      match a with
      | ⟨0, _⟩ => exact lhs_row _ _
      | ⟨1, _⟩ => exact (dot_S100000x128_S128x128_S100000x128_1_0_0_1_n_n.lhsIdx_val_of_single rfl _ _).trans hk)
  have er : dot_S100000x128_S128x128_S100000x128_1_0_0_1_n_n.rhsIdx (ix2 n o) ((contrEquiv1 dot_S100000x128_S128x128_S100000x128_1_0_0_1_n_n 128 rfl rfl).symm k) = ix2 k o :=
    funext fun a => Fin.ext (by
      match a with
      | ⟨0, _⟩ => exact (dot_S100000x128_S128x128_S100000x128_1_0_0_1_n_n.rhsIdx_val_of_single rfl _ _).trans hk
      | ⟨1, _⟩ => exact rhs_col _ _)
  rw [el, er]

/-- A transposed 128×128 matrix at `(k, o)` is the matrix at `(o, k)`. -/
theorem transposed_apply {α : Type} (W : S128x128.Idx → α) (k o : Fin 128) :
    transpose S128x128 [1, 0] W transposes_S128x128_S128x128_1_0 (ix2 k o) = W (ix2 o k) :=
  transpose_apply [1, 0] W transposes_S128x128_S128x128_1_0 (ix2 k o) (ix2 o k) (fun b => match b with
    | ⟨0, _⟩ => rfl
    | ⟨1, _⟩ => rfl)

/-- A per-node value repeated along the feature axis is read at the node. -/
theorem per_node_apply {α : Type} (d : S100000.Idx → α) (n : Fin 100000) (k : Fin 128) :
    broadcastInDim S100000x128 ![0, 1] bcast_S100000x1_S100000x128_0_1
      (broadcastInDim S100000x1 ![0] bcast_S100000_S100000x1_0 d) (ix2 n k) = d (ix1 n) :=
  (broadcastInDim_apply _ bcast_S100000x1_S100000x128_0_1 _ (ix2 n k) (ix2 n (0 : Fin 1)) (fun a => match a with
    | ⟨0, _⟩ => by show n.val = if (100000 : Nat) = 1 then 0 else n.val; rw [if_neg (by decide)]
    | ⟨1, _⟩ => by show 0 = if (1 : Nat) = 1 then 0 else k.val; rw [if_pos rfl])).trans
  (broadcastInDim_apply _ bcast_S100000_S100000x1_0 d (ix2 n (0 : Fin 1)) (ix1 n) (fun a => match a with
    | ⟨0, _⟩ => by show n.val = if (100000 : Nat) = 1 then 0 else n.val; rw [if_neg (by decide)]))

/-- A per-feature value repeated down the node axis is read at the feature. -/
theorem per_feature_apply {α : Type} (b : S128.Idx → α) (n : Fin 100000) (o : Fin 128) :
    broadcastInDim S100000x128 ![0, 1] bcast_S1x128_S100000x128_0_1
      (broadcastInDim S1x128 ![1] bcast_S128_S1x128_1 b) (ix2 n o) = b (ix1 o) :=
  (broadcastInDim_apply _ bcast_S1x128_S100000x128_0_1 _ (ix2 n o) (ix2 (0 : Fin 1) o) (fun a => match a with
    | ⟨0, _⟩ => by show 0 = if (1 : Nat) = 1 then 0 else n.val; rw [if_pos rfl]
    | ⟨1, _⟩ => by show o.val = if (128 : Nat) = 1 then 0 else o.val; rw [if_neg (by decide)])).trans
  (broadcastInDim_apply _ bcast_S128_S1x128_1 b (ix2 (0 : Fin 1) o) (ix1 o) (fun a => match a with
    | ⟨0, _⟩ => by show o.val = if (128 : Nat) = 1 then 0 else o.val; rw [if_neg (by decide)]))

/-- The literal the counts are clamped against, repeated over the nodes, is the extended real one at every node. -/
theorem ones_apply (j : S100000.Idx) :
    broadcastInDim S100000 ![] bcast_S_S100000 (constant (F := Ideal) S_ .f32 0x3F800000#32) j = (1 : EReal) :=
  (broadcastInDim_apply _ bcast_S_S100000 _ j (fun a => a.elim0) (fun a => a.elim0)).trans Ideal.ofBits_one_f32

/-- Entry `(n, o)` of the reference's tail is the layer function's entry. -/
theorem tail_apply (h A : FVec Ideal S100000x128 .f32)
    (deg : FVec Ideal S100000 .f32)
    (Ws Wn : FVec Ideal S128x128 .f32) (b : FVec Ideal S128 .f32)
    (n : Fin 100000) (o : Fin 128) :
    tail h A deg Ws Wn b (ix2 n o) = Cert.MeanScale.combineAt h A deg Ws Wn b n o := by
  unfold Cert.MeanScale.combineAt
  simp only [tail, addf, Ideal.addf_def]
  rw [product_apply, product_apply, per_feature_apply]
  refine congrArg₂ (· + ·) (congrArg₂ (· + ·) (Finset.sum_congr rfl fun k _ => ?_)
    (Finset.sum_congr rfl fun k _ => ?_)) rfl
  · rw [transposed_apply]
  · rw [transposed_apply]
    simp only [Host.divf, Ideal.hostDivf_def]
    rw [per_node_apply]
    simp only [maximumf, Ideal.maximumf_def]
    rw [ones_apply]

/-- The reference's tail is the layer function `combine`, whatever the two scatter-additions produced. -/
theorem tail_eq_combine (h A : FVec Ideal S100000x128 .f32)
    (deg : FVec Ideal S100000 .f32)
    (Ws Wn : FVec Ideal S128x128 .f32) (b : FVec Ideal S128 .f32) :
    tail h A deg Ws Wn b = Cert.MeanScale.combine h A deg Ws Wn b := by
  funext i
  obtain ⟨n, o, rfl⟩ : ∃ (n : Fin 100000) (o : Fin 128), i = ix2 n o := ⟨i 0, i 1, eq_ix2 i⟩
  rw [Cert.MeanScale.combine_ix2]
  exact tail_apply h A deg Ws Wn b n o

end Cert.ReferenceIdeal.RefValue

end
-- ==== Proof.Claims.lean ====
import proofs.«169858_j48258252538106_2_alg».proof.Defs
import proofs.«169858_j48258252538106_2_alg».proof.Proof.Gen.Kernel.Frame
import proofs.«169858_j48258252538106_2_alg».proof.Proof.Gen.KernelIdeal.Frame
import proofs.«169858_j48258252538106_2_alg».proof.Proof.Gen.ReferenceIdeal.Run
import proofs.«169858_j48258252538106_2_alg».proof.Proof.Gen.Pre_finite_inputs
import proofs.«169858_j48258252538106_2_alg».proof.Proof.KernelValue
import proofs.«169858_j48258252538106_2_alg».proof.Proof.RefSide

/-!
The five claims.

Both programs end with the layer function `combine` of the same six arrays.  The kernel's result array is
assembled from its 20 row blocks; the reference's run ends at its operations' composed term, which is the
tail of the reference applied to its two scatter-additions, and that tail is `combine` whatever they
produced.  The two programs compute the scatter-additions by the same operations with the same dimension
numbers (the two printed records of each agree field by field), so on arguments that agree they are the same
two arrays.  The frames are the generated ones; the reference, a host program, has its run with the result
forgotten; and no rewrite was applied in idealizing the kernel, so there is nothing to preserve.
-/

noncomputable section

namespace Cert.Proof.Claims

open Idealize.ShloMosaic Idealize.ShloMosaic.TcCoe Idealize.SL.Sem

/-! ## The shared scatter-additions are the same arrays in both programs -/

/-- The two programs' dimension numbers for the row scatter-addition are the same record. -/
theorem scatter_rows_eq : Cert.ReferenceIdeal.scatter_S100000x128_S1600000x1_S1600000x128_1_0_0_1 = Cert.KernelIdeal.scatter_S100000x128_S1600000x1_S1600000x128_1_0_0_1 := rfl

/-- The two programs' dimension numbers for the count scatter-addition are the same record. -/
theorem scatter_count_eq : Cert.ReferenceIdeal.scatter_S100000_S1600000x1_S1600000_n_0_0_1 = Cert.KernelIdeal.scatter_S100000_S1600000x1_S1600000_n_0_0_1 := rfl

/-- The two programs' dimension numbers for the gather of source rows are the same record. -/
theorem gather_rows_eq : Cert.ReferenceIdeal.gather_S100000x128_S1600000x1_S1600000x128_1_0_n_n_0_1_1128 = Cert.KernelIdeal.gather_S100000x128_S1600000x1_S1600000x128_1_0_n_n_0_1_1128 := rfl

/-- The summed neighbour features are the same function of the arguments in both programs. -/
theorem neighbourSum_eq (h : FVec Ideal Cert.KernelIdeal.S100000x128 .f32) (src dst : IVec Cert.KernelIdeal.S1600000 32) :
    Cert.ReferenceIdeal.RefValue.neighbourSum h src dst = Cert.KernelIdeal.HostValue.neighbourSum h src dst := by
  unfold Cert.ReferenceIdeal.RefValue.neighbourSum Cert.KernelIdeal.HostValue.neighbourSum
  rw [scatter_rows_eq, gather_rows_eq]

/-- The neighbour counts are the same function of the arguments in both programs. -/
theorem neighbourCount_eq (dst : IVec Cert.KernelIdeal.S1600000 32) :
    Cert.ReferenceIdeal.RefValue.neighbourCount dst = Cert.KernelIdeal.HostValue.neighbourCount dst := by
  unfold Cert.ReferenceIdeal.RefValue.neighbourCount Cert.KernelIdeal.HostValue.neighbourCount
  rw [scatter_count_eq]

/-! ## The claims -/

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the six arguments, both programs end with the layer function of those
    arguments in their result buffer. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  beta_reduce
  obtain ⟨a0, a1, a2, a3, a4, a5⟩ := hagree c
  rw [a0, a1, a2, a3, a4, a5]
  unfold Cert.KernelIdeal.ArrayValue.result
  rw [← neighbourSum_eq, ← neighbourCount_eq]
  exact Cert.ReferenceIdeal.RefValue.tail_eq_combine _ _ _ _ _ _

end Cert.Proof.Claims

end
-- ==== Proof.lean ====
/- The certificate of one graph-convolution layer with a mean over in-neighbours, on the extended reals.

   Both programs return, for node `n` and output feature `o`,

     Σ_k h n k · W_self o k  +  Σ_k (A n k / max (deg n) 1) · W_neigh o k  +  b o,

   where `A` is the per-node sum of the features of a node's in-neighbours and `deg` their number, both
   computed by the same gather and scatter-additions in the two programs.  The reference divides `A` by the
   clamped count before the second matrix product.  The kernel runs over 20 blocks of 5000 nodes and, in each,
   multiplies the summed features into the weights first and scales the finished product by the reciprocal
   `1 / max (deg n) 1`.  The clamped count is at least one, so it is never zero and its inverse is a
   nonnegative extended real other than +∞; such a factor multiplies through any sum of extended reals, so the
   two arrangements agree for all values of the arrays (Proof/ScaleLaw.lean).  The narrow float format the
   kernel casts its matrix operands to is the identity on the extended reals.

   Proof/Combine.lean states the result as one function of the arrays; Proof/RefSide.lean reads the reference as
   that function; Proof/Payload.lean, Proof/KernelPoint.lean, Proof/KernelHost.lean and Proof/KernelValue.lean
   read the kernel's result array as that function, block by block; Proof/Claims.lean states the five claims. -/
import proofs.«169858_j48258252538106_2_alg».proof.Defs
import proofs.«169858_j48258252538106_2_alg».proof.Proof.Gen.Kernel
import proofs.«169858_j48258252538106_2_alg».proof.Proof.Gen.KernelIdeal
import proofs.«169858_j48258252538106_2_alg».proof.Proof.Gen.ReferenceIdeal
import proofs.«169858_j48258252538106_2_alg».proof.Proof.Gen.Pre_finite_inputs
import proofs.«169858_j48258252538106_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, Claims.preserves, Claims.algebraic⟩

end Cert.Proof

end
